-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 93
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S_, .f32⟩
  | .hbm, ⟨53, _⟩ => ⟨S1600000, .f32⟩
  | .hbm, ⟨54, _⟩ => ⟨S_, .f32⟩
  | .hbm, ⟨55, _⟩ => ⟨S100000, .f32⟩
  | .hbm, ⟨56, _⟩ => ⟨S1600000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S_, .f32⟩
  | .hbm, ⟨80, _⟩ => ⟨S1600000, .f32⟩
  | .hbm, ⟨81, _⟩ => ⟨S_, .f32⟩
  | .hbm, ⟨82, _⟩ => ⟨S100000, .f32⟩
  | .hbm, ⟨83, _⟩ => ⟨S1600000x1, .i32⟩
  | .hbm, ⟨84, _⟩ => ⟨S100000, .f32⟩
  | .hbm, ⟨85, _⟩ => ⟨S_, .f32⟩
  | .hbm, ⟨86, _⟩ => ⟨S100000, .f32⟩
  | .hbm, ⟨87, _⟩ => ⟨S100000, .f32⟩
  | .hbm, ⟨88, _⟩ => ⟨S100000x1, .f32⟩
  | .hbm, ⟨89, _⟩ => ⟨S100000x128, .f32⟩
  | .hbm, ⟨90, _⟩ => ⟨S100000x128, .f32⟩
  | .hbm, ⟨91, _⟩ => ⟨S1x64, .f32⟩
  | .hbm, ⟨92, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_9 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_10 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_12 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_13 : Ref sig .tc := ⟨.hbm, 79, rfl⟩
abbrev main_v52 : Ref sig .tc := ⟨.hbm, 80, rfl⟩
abbrev main_cst_14 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_15 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000x128, .f32⟩
  | .hbm, ⟨89, _⟩ => ⟨S_, .f32⟩
  | .hbm, ⟨90, _⟩ => ⟨S100000x128, .f32⟩
  | .hbm, ⟨91, _⟩ => ⟨S1600000x1, .i32⟩
  | .hbm, ⟨92, _⟩ => ⟨S100000x128, .f32⟩
  | .hbm, ⟨93, _⟩ => ⟨S_, .f32⟩
  | .hbm, ⟨94, _⟩ => ⟨S1600000, .f32⟩
  | .hbm, ⟨95, _⟩ => ⟨S_, .f32⟩
  | .hbm, ⟨96, _⟩ => ⟨S100000, .f32⟩
  | .hbm, ⟨97, _⟩ => ⟨S1600000x1, .i32⟩
  | .hbm, ⟨98, _⟩ => ⟨S100000, .f32⟩
  | .hbm, ⟨99, _⟩ => ⟨S_, .f32⟩
  | .hbm, ⟨100, _⟩ => ⟨S100000, .f32⟩
  | .hbm, ⟨101, _⟩ => ⟨S100000, .f32⟩
  | .hbm, ⟨102, _⟩ => ⟨S100000x1, .f32⟩
  | .hbm, ⟨103, _⟩ => ⟨S100000x128, .f32⟩
  | .hbm, ⟨104, _⟩ => ⟨S100000x128, .f32⟩
  | .hbm, ⟨105, _⟩ => ⟨S100000x64, .f32⟩
  | .hbm, ⟨106, _⟩ => ⟨S100000x64, .f32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The tiled program's run, with its result named.

  The program is three pipelined regions among stretches of host operations. Its run ends with every buffer that is
  not scoped to a region at the contents the fold through the segments leaves (`Gen.W6`): the launch memory, then
  each stretch's operations applied, then each region's arrays at what its write-backs leave. Reading that fold at
  the result buffer gives the result; reading it at an argument gives the argument as launched.
-/
import proofs.«129604_j23940147708109_1_alg».proof.Proof.Gen.KernelIdeal.Frame

noncomputable section

namespace Cert.KernelIdeal.RunResult

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the fold's
    contents and the twelve argument arrays as launched. -/
theorem run : θ_run defs (onTc (τ := τ) (main (F := F))) ⟨m, fun _ => 0, ρ⟩ (fun r => ∀ c : Dev nD,
      r.2.mem ((c.tc : Thread nD τ).loc main_v62) = W6 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v62 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.RunResult

end
-- ==== Proof.Spec.lean ====
/-
  The network both programs compute, as ONE function of the twelve argument arrays.

  A layer maps node features `h : [100000, K]` to

      h · Ws  +  mean(h) · Wn  +  b           (clamped below at zero in the first two layers),

  where `mean(h)` is the NEIGHBOUR MEAN: the rows of `h` gathered at the edge sources, summed into the edge
  destinations, and divided row by row by `max(in-degree, 1)`. Both programs compute the neighbour mean with the
  same host operations applied to the same operands, so it is kept here as one function `mean` that no proof
  opens: whatever the gather and the scatter-sum do with the integer edge lists, they do it on both sides.
  The three layers are composed as `net`.
-/
import proofs.«129604_j23940147708109_1_alg».proof.Proof.Gen.ReferenceIdeal
import Idealize.ShloMosaic.PureOps.Ideal

noncomputable section

namespace Cert.Sage

open Idealize.ShloMosaic Cert.ReferenceIdeal Cert.ReferenceIdeal.Gen

/-- An edge list: one 32-bit integer per edge. -/
abbrev Edges : Type := (⟨S1600000, .i32⟩ : BufTy).Contents (Elt Ideal)

/-- The neighbour mean of `h` along the edges `src → dst`: gather the source rows (a negative source index is
    first shifted by the number of nodes), sum them into the destination rows starting from zero, and divide each
    row by the larger of the destination's edge count and one. -/
def mean (h : FVec Ideal S100000x128 .f32) (src dst : Edges) : FVec Ideal S100000x128 .f32 :=
  Host.divf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))
          (broadcastInDim S100000 ![] bcast_S_S100000 (constant (F := Ideal) S_ .f32 0x3F800000#32)))))

/-- A hidden layer (128 → 128): `max(h · Ws + hn · Wn + b, 0)`. -/
def hidden (h hn : FVec Ideal S100000x128 .f32) (Ws Wn : FVec Ideal S128x128 .f32) (b : FVec Ideal S128 .f32) :
    FVec Ideal S100000x128 .f32 :=
  maximumf
    (addf
      (addf (Host.dotGeneral dot_S100000x128_S128x128_S100000x128_1_0_0_1_n_n none h Ws)
        (Host.dotGeneral dot_S100000x128_S128x128_S100000x128_1_0_0_1_n_n none hn Wn))
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- The output layer (128 → 64): `h · Ws + hn · Wn + b`, not clamped. -/
def output (h hn : FVec Ideal S100000x128 .f32) (Ws Wn : FVec Ideal S128x64 .f32) (b : FVec Ideal S64 .f32) :
    FVec Ideal S100000x64 .f32 :=
  addf
    (addf (Host.dotGeneral dot_S100000x128_S128x64_S100000x64_1_0_0_1_n_n none h Ws)
      (Host.dotGeneral dot_S100000x128_S128x64_S100000x64_1_0_0_1_n_n none hn Wn))
    (broadcastInDim S100000x64 ![0, 1] bcast_S1x64_S100000x64_0_1 (broadcastInDim S1x64 ![1] bcast_S64_S1x64_1 b))

/-- The features after the first layer. -/
def feat1 (x : FVec Ideal S100000x128 .f32) (src dst : Edges) (Ws0 Wn0 : FVec Ideal S128x128 .f32) (b0 : FVec Ideal S128 .f32) :
    FVec Ideal S100000x128 .f32 :=
  hidden x (mean x src dst) Ws0 Wn0 b0

/-- The features after the second layer. -/
def feat2 (x : FVec Ideal S100000x128 .f32) (src dst : Edges) (Ws0 Wn0 : FVec Ideal S128x128 .f32) (b0 : FVec Ideal S128 .f32)
    (Ws1 Wn1 : FVec Ideal S128x128 .f32) (b1 : FVec Ideal S128 .f32) : FVec Ideal S100000x128 .f32 :=
  hidden (feat1 x src dst Ws0 Wn0 b0) (mean (feat1 x src dst Ws0 Wn0 b0) src dst) Ws1 Wn1 b1

/-- The whole network: three layers, each fed the previous features and their neighbour mean. -/
def net (x : FVec Ideal S100000x128 .f32) (src dst : Edges) (Ws0 Wn0 : FVec Ideal S128x128 .f32) (b0 : FVec Ideal S128 .f32)
    (Ws1 Wn1 : FVec Ideal S128x128 .f32) (b1 : FVec Ideal S128 .f32) (Ws2 Wn2 : FVec Ideal S128x64 .f32) (b2 : FVec Ideal S64 .f32) :
    FVec Ideal S100000x64 .f32 :=
  output (feat2 x src dst Ws0 Wn0 b0 Ws1 Wn1 b1) (mean (feat2 x src dst Ws0 Wn0 b0 Ws1 Wn1 b1) src dst) Ws2 Wn2 b2

end Cert.Sage

end
-- ==== Proof.LibAffineLayer.lean ====
/-
  General lemmas for an affine layer `x ↦ x · W + b` written two ways: as ONE product over a concatenated
  operand, and as a SUM of products over the concatenation's pieces against the matching row blocks of `W`.

  * `sum_split2`, `sum_split3`: a finite sum over `Fin n` is the sum of its sums over two (three) consecutive
    ranges — in any commutative monoid, so it holds on the extended reals with no finiteness asked.
  * `plain_sum`: the contraction sum of a plain `[M,K] × [K,N]` product (one contracted axis, no batch axis),
    read at the output index `(p, q)`, is `∑ k, l (p, k) · r (k, q)`.
  * `matmul_zero_ix2` / `dotGeneral_ix2`: a matrix product into a zero accumulator, and the host's product, at the
    ideal values are that sum.
  * `concat2_left/right`, `concat3_fst/snd/thd`: a concatenation of two (three) matrices along the columns read at
    `(p, k)` with `k` in the first, second, third range of columns.
  * `row_bias_apply`: a vector cast to one row and broadcast over many rows reads, at `(p, q)`, the vector at `q`.
  * `rowBlock`, `slice_rows_eq`: rows `o … o + r - 1` of a matrix, and a slice along the rows as that block.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib.AffineLayer

open Idealize.ShloMosaic Idealize.ShloMosaic.ValueIdx

/-! ## Sums over consecutive ranges -/

/-- A sum over `Fin n` with `n = a + b` is the sum over the first `a` positions plus the sum over the next `b`. -/
theorem sum_split2 {M : Type*} [AddCommMonoid M] (a b n : ℕ) (h : a + b = n) (f : Fin n → M) :
    ∑ k : Fin n, f k = ∑ k : Fin a, f ⟨k.val, by omega⟩ + ∑ k : Fin b, f ⟨a + k.val, by omega⟩ := by
  subst h
  rw [Fin.sum_univ_add]
  rfl

/-- A sum over `Fin n` with `n = a + b + c` is the sum of its sums over the three consecutive ranges. -/
theorem sum_split3 {M : Type*} [AddCommMonoid M] (a b c n : ℕ) (h : a + b + c = n) (f : Fin n → M) :
    ∑ k : Fin n, f k
      = (∑ k : Fin a, f ⟨k.val, by omega⟩ + ∑ k : Fin b, f ⟨a + k.val, by omega⟩) + ∑ k : Fin c, f ⟨a + b + k.val, by omega⟩ := by
  subst h
  rw [Fin.sum_univ_add, Fin.sum_univ_add]
  rfl

/-! ## A plain matrix product read at an index -/

/-- The contraction sum of a plain `[M,K] × [K,N]` product at the output index `(p, q)`: the left operand's row `p`
    against the right operand's column `q`. -/
theorem plain_sum {M K N : ℕ} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => rfl)
  rw [el, er]

/-- A kernel's matrix product into the zero accumulator, at the ideal values, read at `(p, q)`. -/
theorem matmul_zero_ix2 {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (p : Fin M) (q : Fin N) :
    matmul D prec a b (constant (F := Ideal) ⟨2, ![M, N]⟩ .f32 0x00000000#32) (ix2 p q)
      = ∑ k : Fin K, a (ix2 p k) * b (ix2 k q) := by
  subst hD
  exact (Ideal.matmul_constant_zero_apply _ prec a b (ix2 p q)).trans (plain_sum a b p q)

/-- The host's matrix product, at the ideal values, read at `(p, q)`. -/
theorem dotGeneral_ix2 {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (p : Fin M) (q : Fin N) :
    Host.dotGeneral D prec a b (ix2 p q) = ∑ k : Fin K, a (ix2 p k) * b (ix2 k q) := by
  subst hD
  exact (Ideal.dotGeneral_apply _ prec .single a b (ix2 p q)).trans (plain_sum a b p q)

/-! ## A concatenation along the columns read at an index -/

section Concat
variable {α : Type}

/-- Two matrices joined along the columns, read in the first one's columns. -/
theorem concat2_left {R a b n : ℕ} (x₁ : (⟨2, ![R, a]⟩ : Shape).Idx → α) (x₂ : (⟨2, ![R, b]⟩ : Shape).Idx → α)
    (h : Shape.Concatenates [⟨2, ![R, a]⟩, ⟨2, ![R, b]⟩] ⟨2, ![R, n]⟩ 1) (p : Fin R) (k : Fin a) (k' : Fin n)
    (hk : k'.val = k.val) :
    concatenate ⟨2, ![R, n]⟩ 1 [⟨⟨2, ![R, a]⟩, x₁⟩, ⟨⟨2, ![R, b]⟩, x₂⟩] h (ix2 p k') = x₁ (ix2 p k) :=
  concatenate_apply_piece 1 [⟨⟨2, ![R, a]⟩, x₁⟩, ⟨⟨2, ![R, b]⟩, x₂⟩] h (ix2 p k') 0 (Nat.zero_lt_succ _) _ x₁ rfl rfl 0 rfl (ix2 p k)
    (fun b hb => by
      match b with
      | ⟨0, _⟩ => rfl
      | ⟨1, _⟩ => exact absurd rfl hb)
    (by show 0 + k.val = k'.val; omega)

/-- Two matrices joined along the columns, read in the second one's columns. -/
theorem concat2_right {R a b n : ℕ} (x₁ : (⟨2, ![R, a]⟩ : Shape).Idx → α) (x₂ : (⟨2, ![R, b]⟩ : Shape).Idx → α)
    (h : Shape.Concatenates [⟨2, ![R, a]⟩, ⟨2, ![R, b]⟩] ⟨2, ![R, n]⟩ 1) (p : Fin R) (k : Fin b) (k' : Fin n)
    (hk : k'.val = a + k.val) :
    concatenate ⟨2, ![R, n]⟩ 1 [⟨⟨2, ![R, a]⟩, x₁⟩, ⟨⟨2, ![R, b]⟩, x₂⟩] h (ix2 p k') = x₂ (ix2 p k) :=
  concatenate_apply_piece 1 [⟨⟨2, ![R, a]⟩, x₁⟩, ⟨⟨2, ![R, b]⟩, x₂⟩] h (ix2 p k') 1 (Nat.succ_lt_succ (Nat.zero_lt_succ _)) _ x₂ rfl rfl a (by simp) (ix2 p k)
    (fun b hb => by
      match b with
      | ⟨0, _⟩ => rfl
      | ⟨1, _⟩ => exact absurd rfl hb)
    (by show a + k.val = k'.val; omega)

/-- Three matrices joined along the columns, read in the first one's columns. -/
theorem concat3_fst {R a b c n : ℕ} (x₁ : (⟨2, ![R, a]⟩ : Shape).Idx → α) (x₂ : (⟨2, ![R, b]⟩ : Shape).Idx → α)
    (x₃ : (⟨2, ![R, c]⟩ : Shape).Idx → α)
    (h : Shape.Concatenates [⟨2, ![R, a]⟩, ⟨2, ![R, b]⟩, ⟨2, ![R, c]⟩] ⟨2, ![R, n]⟩ 1) (p : Fin R) (k : Fin a) (k' : Fin n)
    (hk : k'.val = k.val) :
    concatenate ⟨2, ![R, n]⟩ 1 [⟨⟨2, ![R, a]⟩, x₁⟩, ⟨⟨2, ![R, b]⟩, x₂⟩, ⟨⟨2, ![R, c]⟩, x₃⟩] h (ix2 p k') = x₁ (ix2 p k) :=
  concatenate_apply_piece 1 [⟨⟨2, ![R, a]⟩, x₁⟩, ⟨⟨2, ![R, b]⟩, x₂⟩, ⟨⟨2, ![R, c]⟩, x₃⟩] h (ix2 p k') 0 (Nat.zero_lt_succ _) _ x₁ rfl rfl 0 rfl (ix2 p k)
    (fun b hb => by
      match b with
      | ⟨0, _⟩ => rfl
      | ⟨1, _⟩ => exact absurd rfl hb)
    (by show 0 + k.val = k'.val; omega)

/-- Three matrices joined along the columns, read in the second one's columns. -/
theorem concat3_snd {R a b c n : ℕ} (x₁ : (⟨2, ![R, a]⟩ : Shape).Idx → α) (x₂ : (⟨2, ![R, b]⟩ : Shape).Idx → α)
    (x₃ : (⟨2, ![R, c]⟩ : Shape).Idx → α)
    (h : Shape.Concatenates [⟨2, ![R, a]⟩, ⟨2, ![R, b]⟩, ⟨2, ![R, c]⟩] ⟨2, ![R, n]⟩ 1) (p : Fin R) (k : Fin b) (k' : Fin n)
    (hk : k'.val = a + k.val) :
    concatenate ⟨2, ![R, n]⟩ 1 [⟨⟨2, ![R, a]⟩, x₁⟩, ⟨⟨2, ![R, b]⟩, x₂⟩, ⟨⟨2, ![R, c]⟩, x₃⟩] h (ix2 p k') = x₂ (ix2 p k) :=
  concatenate_apply_piece 1 [⟨⟨2, ![R, a]⟩, x₁⟩, ⟨⟨2, ![R, b]⟩, x₂⟩, ⟨⟨2, ![R, c]⟩, x₃⟩] h (ix2 p k') 1 (Nat.succ_lt_succ (Nat.zero_lt_succ _)) _ x₂ rfl rfl a (by simp) (ix2 p k)
    (fun b hb => by
      match b with
      | ⟨0, _⟩ => rfl
      | ⟨1, _⟩ => exact absurd rfl hb)
    (by show a + k.val = k'.val; omega)

/-- Three matrices joined along the columns, read in the third one's columns. -/
theorem concat3_thd {R a b c n : ℕ} (x₁ : (⟨2, ![R, a]⟩ : Shape).Idx → α) (x₂ : (⟨2, ![R, b]⟩ : Shape).Idx → α)
    (x₃ : (⟨2, ![R, c]⟩ : Shape).Idx → α)
    (h : Shape.Concatenates [⟨2, ![R, a]⟩, ⟨2, ![R, b]⟩, ⟨2, ![R, c]⟩] ⟨2, ![R, n]⟩ 1) (p : Fin R) (k : Fin c) (k' : Fin n)
    (hk : k'.val = a + b + k.val) :
    concatenate ⟨2, ![R, n]⟩ 1 [⟨⟨2, ![R, a]⟩, x₁⟩, ⟨⟨2, ![R, b]⟩, x₂⟩, ⟨⟨2, ![R, c]⟩, x₃⟩] h (ix2 p k') = x₃ (ix2 p k) :=
  concatenate_apply_piece 1 [⟨⟨2, ![R, a]⟩, x₁⟩, ⟨⟨2, ![R, b]⟩, x₂⟩, ⟨⟨2, ![R, c]⟩, x₃⟩] h (ix2 p k') 2 (Nat.succ_lt_succ (Nat.succ_lt_succ (Nat.zero_lt_succ _))) _ x₃ rfl rfl (a + b) (by simp) (ix2 p k)
    (fun b hb => by
      match b with
      | ⟨0, _⟩ => rfl
      | ⟨1, _⟩ => exact absurd rfl hb)
    (by show a + b + k.val = k'.val; omega)

/-- A vector cast to one row and broadcast over `a` rows reads, at `(p, q)`, the vector at `q`. -/
theorem row_bias_apply {a b : ℕ} (v : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix1 q) :=
  (broadcastTo_1b_ab_apply _ h₂ p q).trans (shapeCast_a_1a_apply v h₁ 0 q)

/-- Rows `o … o + r - 1` of a matrix with `n` rows. -/
def rowBlock {n c : ℕ} (o r : ℕ) (h : o + r ≤ n) (W : (⟨2, ![n, c]⟩ : Shape).Idx → α) : (⟨2, ![r, c]⟩ : Shape).Idx → α :=
  fun j => W (ix2 ⟨o + (j 0).val, by have := idx2_lt0 j; omega⟩ (j 1))

theorem rowBlock_ix2 {n c : ℕ} (o r : ℕ) (h : o + r ≤ n) (W : (⟨2, ![n, c]⟩ : Shape).Idx → α) (p : Fin r) (q : Fin c) :
    rowBlock o r h W (ix2 p q) = W (ix2 ⟨o + p.val, by omega⟩ q) := rfl

/-- A slice of a matrix along its rows from row `o` is that block of rows. -/
theorem slice_rows_eq {n c r : ℕ} (o : ℕ) (h : o + r ≤ n) (W : (⟨2, ![n, c]⟩ : Shape).Idx → α)
    (hs : (⟨2, ![n, c]⟩ : Shape).Slices ![o, 0] ⟨2, ![r, c]⟩) :
    extractStridedSlice ⟨2, ![r, c]⟩ ![o, 0] W hs = rowBlock o r h W := by
  funext j
  obtain ⟨p, q, rfl⟩ : ∃ (p : Fin r) (q : Fin c), j = ix2 p q := ⟨j 0, j 1, eq_ix2 j⟩
  exact slice2_axis0_apply o W hs p q ⟨o + p.val, by omega⟩ rfl

end Concat

end Cert.Lib.AffineLayer

end
-- ==== Proof.Layer.lean ====
/-
  One layer of the network read at an index, on the two sides.

  A layer takes the node features `h` and the neighbour means `hn` (both `[R, K]`), two weight matrices
  `Ws`, `Wn` (`[K, N]`) and a bias `b` (`[N]`), and returns, at row `P` and column `q`,

      (∑ k, h[P,k] · Ws[k,q]  +  ∑ k, hn[P,k] · Wn[k,q])  +  b[q],

  clamped below at zero in the first two layers. The tiled side computes it on a block of `M` rows with two
  matrix products into a zero accumulator, the bias kept as one row `[1, N]` and repeated over the rows; the
  whole-array side computes it with two host products and the bias broadcast in two steps. Both read, at an
  index, as the SAME pair of sums in the same grouping, so no law of the extended reals is needed beyond
  reading each operation at an index: a change of float format is the identity on the extended reals, and a
  product into the zero accumulator is the plain contraction sum.
-/
import proofs.«129604_j23940147708109_1_alg».proof.Proof.LibAffineLayer

noncomputable section

namespace Cert.Sage.Layer

open Idealize.ShloMosaic Idealize.ShloMosaic.ValueIdx Cert.Lib.AffineLayer

/-- The tiled side's affine part at `(p, q)`: both products read as contraction sums over the block's row `p`,
    the bias row read at column `q`. -/
theorem tile_affine_ix2 {M K N : ℕ} (D : DotDims ⟨2, ![M, K]⟩ ⟨2, ![K, N]⟩ ⟨2, ![M, N]⟩) (hD : D = DotDims.plain M K N)
    (x0 x1 : FVec Ideal ⟨2, ![M, K]⟩ .f32) (x2 x3 : FVec Ideal ⟨2, ![K, N]⟩ .f32) (x4 : FVec Ideal ⟨2, ![1, N]⟩ .f32)
    (hlt : FTy.bits .bf16 < FTy.bits .f32) (hbr : (⟨2, ![1, N]⟩ : Shape).Broadcasts ⟨2, ![M, N]⟩) (p : Fin M) (q : Fin N) :
    addf (addf (matmul D none (truncf .bf16 x0 hlt) (truncf .bf16 x2 hlt) (constant (F := Ideal) ⟨2, ![M, N]⟩ .f32 0x00000000#32))
               (matmul D none (truncf .bf16 x1 hlt) (truncf .bf16 x3 hlt) (constant (F := Ideal) ⟨2, ![M, N]⟩ .f32 0x00000000#32)))
         (broadcastTo ⟨2, ![M, N]⟩ x4 hbr) (ix2 p q)
      = (∑ k : Fin K, x0 (ix2 p k) * x2 (ix2 k q) + ∑ k : Fin K, x1 (ix2 p k) * x3 (ix2 k q)) + x4 (ix2 (0 : Fin 1) q) := by
  rw [addf_apply, addf_apply, matmul_zero_ix2 D hD, matmul_zero_ix2 D hD, broadcastTo_1b_ab_apply]
  rfl

/-- A vector `[N]` placed as the one row of `[1, N]` and then repeated over `R` rows reads, at `(P, q)`, the
    vector at `q`. -/
theorem bias_two_step_apply {R N : ℕ} (b : (⟨1, ![N]⟩ : Shape).Idx → EReal)
    (hb1 : (⟨1, ![N]⟩ : Shape).BroadcastsInDim ⟨2, ![1, N]⟩ ![1])
    (hb2 : (⟨2, ![1, N]⟩ : Shape).BroadcastsInDim ⟨2, ![R, N]⟩ ![0, 1]) (P : Fin R) (q : Fin N) :
    broadcastInDim ⟨2, ![R, N]⟩ ![0, 1] hb2 (broadcastInDim ⟨2, ![1, N]⟩ ![1] hb1 b) (ix2 P q) = b (ix1 q) := by
  refine (broadcastInDim_apply ![0, 1] hb2 _ (ix2 P q) (ix2 (0 : Fin 1) q) fun ax => ?_).trans
    (broadcastInDim_apply ![1] hb1 b (ix2 (0 : Fin 1) q) (ix1 q) fun ax => ?_)
  · match ax with
    | ⟨0, _⟩ => rfl
    | ⟨1, _⟩ =>
      show q.val = if N = 1 then 0 else q.val
      split
      · have := q.isLt; omega
      · rfl
  · match ax with
    | ⟨0, _⟩ =>
      show q.val = if N = 1 then 0 else q.val
      split
      · have := q.isLt; omega
      · rfl

/-- The whole-array side's affine part at `(P, q)`: both host products read as contraction sums over row `P`,
    the bias read at column `q`. -/
theorem whole_affine_ix2 {R K N : ℕ} (D : DotDims ⟨2, ![R, K]⟩ ⟨2, ![K, N]⟩ ⟨2, ![R, N]⟩) (hD : D = DotDims.plain R K N)
    (h hn : FVec Ideal ⟨2, ![R, K]⟩ .f32) (Ws Wn : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![R, N]⟩ ![0, 1]) (P : Fin R) (q : Fin N) :
    addf (addf (Host.dotGeneral D none h Ws) (Host.dotGeneral D none hn Wn))
         (broadcastInDim ⟨2, ![R, N]⟩ ![0, 1] hb2 (broadcastInDim ⟨2, ![1, N]⟩ ![1] hb1 b)) (ix2 P q)
      = (∑ k : Fin K, h (ix2 P k) * Ws (ix2 k q) + ∑ k : Fin K, hn (ix2 P k) * Wn (ix2 k q)) + b (ix1 q) := by
  rw [addf_apply, addf_apply, dotGeneral_ix2 D hD, dotGeneral_ix2 D hD, bias_two_step_apply]

/-- THE LAYER, AFFINE PART: when row `p` of the block is row `P` of the array (for `h` and for `hn`), the block's
    weights are the weights, and the block's bias row is the bias, the tiled side at `(p, q)` is the whole-array
    side at `(P, q)`. -/
theorem affine_bridge {M R K N : ℕ} (D : DotDims ⟨2, ![M, K]⟩ ⟨2, ![K, N]⟩ ⟨2, ![M, N]⟩) (hD : D = DotDims.plain M K N)
    (D' : DotDims ⟨2, ![R, K]⟩ ⟨2, ![K, N]⟩ ⟨2, ![R, N]⟩) (hD' : D' = DotDims.plain R K N)
    (x0 x1 : FVec Ideal ⟨2, ![M, K]⟩ .f32) (x2 x3 : FVec Ideal ⟨2, ![K, N]⟩ .f32) (x4 : FVec Ideal ⟨2, ![1, N]⟩ .f32)
    (h hn : FVec Ideal ⟨2, ![R, K]⟩ .f32) (Ws Wn : FVec Ideal ⟨2, ![K, N]⟩ .f32) (b : FVec Ideal ⟨1, ![N]⟩ .f32)
    (hlt : FTy.bits .bf16 < FTy.bits .f32) (hbr : (⟨2, ![1, N]⟩ : Shape).Broadcasts ⟨2, ![M, N]⟩)
    (hb1 : (⟨1, ![N]⟩ : Shape).BroadcastsInDim ⟨2, ![1, N]⟩ ![1])
    (hb2 : (⟨2, ![1, N]⟩ : Shape).BroadcastsInDim ⟨2, ![R, N]⟩ ![0, 1])
    (p : Fin M) (P : Fin R) (q : Fin N)
    (e0 : ∀ k : Fin K, x0 (ix2 p k) = h (ix2 P k)) (e1 : ∀ k : Fin K, x1 (ix2 p k) = hn (ix2 P k))
    (e2 : ∀ k : Fin K, x2 (ix2 k q) = Ws (ix2 k q)) (e3 : ∀ k : Fin K, x3 (ix2 k q) = Wn (ix2 k q))
    (e4 : x4 (ix2 (0 : Fin 1) q) = b (ix1 q)) :
    addf (addf (matmul D none (truncf .bf16 x0 hlt) (truncf .bf16 x2 hlt) (constant (F := Ideal) ⟨2, ![M, N]⟩ .f32 0x00000000#32))
               (matmul D none (truncf .bf16 x1 hlt) (truncf .bf16 x3 hlt) (constant (F := Ideal) ⟨2, ![M, N]⟩ .f32 0x00000000#32)))
         (broadcastTo ⟨2, ![M, N]⟩ x4 hbr) (ix2 p q)
      = addf (addf (Host.dotGeneral D' none h Ws) (Host.dotGeneral D' none hn Wn))
          (broadcastInDim ⟨2, ![R, N]⟩ ![0, 1] hb2 (broadcastInDim ⟨2, ![1, N]⟩ ![1] hb1 b)) (ix2 P q) := by
  rw [tile_affine_ix2 D hD, whole_affine_ix2 D' hD', e4]
  simp only [e0, e1, e2, e3]

/-- The clamp at zero on the tiled side (a scalar zero repeated) and on the whole-array side (a rank-0 zero
    broadcast) is the same `max · 0` at any two indices whose arguments agree. -/
theorem clamp_bridge {s t : Shape} (a : FVec Ideal s .f32) (a' : FVec Ideal t .f32)
    (hz : (⟨0, ![]⟩ : Shape).BroadcastsInDim t ![]) (i : s.Idx) (i' : t.Idx) (e : a i = a' i') :
    maximumf a (broadcast s (Scalar.ofBits (F := Ideal) .f32 0x00000000#32)) i
      = maximumf a' (broadcastInDim t ![] hz (constant (F := Ideal) ⟨0, ![]⟩ .f32 0x00000000#32)) i' := by
  rw [maximumf_apply, maximumf_apply, e]
  rfl

end Cert.Sage.Layer

end
-- ==== Proof.Region0.lean ====
/-
  Region 0 (the first layer's dense part) as ONE whole-array function.

  The region walks the 100000 rows in 20 tiles of 5000 rows. At tile `t` it reads rows `5000·t … 5000·t + 4999` of
  the features and of the neighbour means, the two weight matrices and the bias row whole, and writes rows
  `5000·t … 5000·t + 4999` of the result. Row `p` of the tile is row `5000·t + p` of the arrays, so what the tile
  writes at `(p, q)` is the hidden layer of the whole arrays at `(5000·t + p, q)`: a row of a matrix product only
  reads that row of the left operand. The 20 tiles cover every row once, so the result array ends as the hidden layer
  of the arrays the region found on entry.
-/
import proofs.«129604_j23940147708109_1_alg».proof.Proof.Gen.KernelIdeal.Frame
import proofs.«129604_j23940147708109_1_alg».proof.Proof.Spec
import proofs.«129604_j23940147708109_1_alg».proof.Proof.Layer
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx
open Idealize.SL.Sem
open Idealize.ShloMosaic.Pipeline (Dat Cfg Window)
open Cert.KernelIdeal Cert.KernelIdeal.Gen

-- the contents of the TensorCore's buffers when the region is entered
variable (V : (c : Dev nD) → (b : Ref sig .tc) → Buf (Elt Ideal) ((c : Thread nD τ).loc b))

theorem hz : (![0, 0] : Fin 2 → Nat) = fun _ => 0 := funext fun a => by fin_cases a <;> rfl

/-- Where each window's block sits at tile `t`: the two row-tiled inputs and the output at block row `t`, the
    weights and the bias row at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem tile_lt (t : Fin cfg0.N) : t.val < 20 := lt_of_lt_of_eq t.isLt N_0

/-! ## The input blocks read at an index -/

/-- Row `p` of the features' tile is row `5000·t + p` of the features. -/
theorem read_feat (c : Dev nD) (t : Fin cfg0.N) (p : Fin 5000) (k : Fin 128) (P : Fin 100000) (hP : P.val = t.val * 5000 + p.val) :
    iblk0 V c 0 t (ix2 p k) = V c main_arg0 (ix2 P k) := by
  show V c main_arg0 (((cfg0.win 0).blk t).view.emb (ix2 p k)) = V c main_arg0 (ix2 P k)
  obtain ⟨e0, e1, -⟩ := idx_facts t
  have h : ((cfg0.win 0).blk t).view.emb (ix2 p k) = ix2 P k := by
    funext a; apply Fin.ext
    match a with
    | ⟨0, _⟩ => show win0_0.index t (0 : Fin 2) * 5000 + 1 * p.val = P.val; omega
    | ⟨1, _⟩ => show win0_0.index t (1 : Fin 2) * 128 + 1 * k.val = k.val; omega
  rw [h]

/-- Row `p` of the neighbour means' tile is row `5000·t + p` of the neighbour means. -/
theorem read_mean (c : Dev nD) (t : Fin cfg0.N) (p : Fin 5000) (k : Fin 128) (P : Fin 100000) (hP : P.val = t.val * 5000 + p.val) :
    iblk0 V c 1 t (ix2 p k) = V c main_v18 (ix2 P k) := by
  show V c main_v18 (((cfg0.win 1).blk t).view.emb (ix2 p k)) = V c main_v18 (ix2 P k)
  obtain ⟨-, -, e0, e1, -⟩ := idx_facts t
  have h : ((cfg0.win 1).blk t).view.emb (ix2 p k) = ix2 P k := by
    funext a; apply Fin.ext
    match a with
    | ⟨0, _⟩ => show win0_1.index t (0 : Fin 2) * 5000 + 1 * p.val = P.val; omega
    | ⟨1, _⟩ => show win0_1.index t (1 : Fin 2) * 128 + 1 * k.val = k.val; omega
  rw [h]

/-- The self weights are read whole at every tile. -/
theorem read_ws (c : Dev nD) (t : Fin cfg0.N) (k : Fin 128) (q : Fin 128) :
    iblk0 V c 2 t (ix2 k q) = V c main_arg3 (ix2 k q) := by
  show V c main_arg3 (((cfg0.win 2).blk t).view.emb (ix2 k q)) = V c main_arg3 (ix2 k q)
  obtain ⟨-, -, -, -, e0, e1, -⟩ := idx_facts t
  have h : ((cfg0.win 2).blk t).view.emb (ix2 k q) = ix2 k q := by
    funext a; apply Fin.ext
    match a with
    | ⟨0, _⟩ => show win0_2.index t (0 : Fin 2) * 128 + 1 * k.val = k.val; omega
    | ⟨1, _⟩ => show win0_2.index t (1 : Fin 2) * 128 + 1 * q.val = q.val; omega
  rw [h]

/-- The neighbour weights are read whole at every tile. -/
theorem read_wn (c : Dev nD) (t : Fin cfg0.N) (k : Fin 128) (q : Fin 128) :
    iblk0 V c 3 t (ix2 k q) = V c main_arg4 (ix2 k q) := by
  show V c main_arg4 (((cfg0.win 3).blk t).view.emb (ix2 k q)) = V c main_arg4 (ix2 k q)
  obtain ⟨-, -, -, -, -, -, e0, e1, -⟩ := idx_facts t
  have h : ((cfg0.win 3).blk t).view.emb (ix2 k q) = ix2 k q := by
    funext a; apply Fin.ext
    match a with
    | ⟨0, _⟩ => show win0_3.index t (0 : Fin 2) * 128 + 1 * k.val = k.val; omega
    | ⟨1, _⟩ => show win0_3.index t (1 : Fin 2) * 128 + 1 * q.val = q.val; omega
  rw [h]

/-- The bias row is read whole at every tile. -/
theorem read_bias (c : Dev nD) (t : Fin cfg0.N) (q : Fin 128) :
    iblk0 V c 4 t (ix2 (0 : Fin 1) q) = V c main_v19 (ix2 (0 : Fin 1) q) := by
  show V c main_v19 (((cfg0.win 4).blk t).view.emb (ix2 (0 : Fin 1) q)) = V c main_v19 (ix2 (0 : Fin 1) q)
  obtain ⟨-, -, -, -, -, -, -, -, e0, e1, -⟩ := idx_facts t
  have h : ((cfg0.win 4).blk t).view.emb (ix2 (0 : Fin 1) q) = ix2 (0 : Fin 1) q := by
    funext a; apply Fin.ext
    match a with
    | ⟨0, _⟩ => show win0_4.index t (0 : Fin 2) * 1 + 1 * 0 = 0; omega
    | ⟨1, _⟩ => show win0_4.index t (1 : Fin 2) * 128 + 1 * q.val = q.val; omega
  rw [h]

/-! ## The tile's payload at an index -/

/-- What a tile stores at `(p, q)`, from blocks whose row `p` is row `P` of the arrays, is the hidden layer of the
    arrays at `(P, q)`. -/
theorem pay_at (x0 x1 : Vec Ideal S5000x128 .f32) (x2 x3 : Vec Ideal S128x128 .f32) (x4 : Vec Ideal S1x128 .f32)
    (h hn : FVec Ideal Cert.ReferenceIdeal.S100000x128 .f32) (Ws Wn : FVec Ideal Cert.ReferenceIdeal.S128x128 .f32)
    (b : FVec Ideal Cert.ReferenceIdeal.S128 .f32)
    (p : Fin 5000) (P : Fin 100000) (q : Fin 128)
    (e0 : ∀ k : Fin 128, x0 (ix2 p k) = h (ix2 P k)) (e1 : ∀ k : Fin 128, x1 (ix2 p k) = hn (ix2 P k))
    (e2 : ∀ k : Fin 128, x2 (ix2 k q) = Ws (ix2 k q)) (e3 : ∀ k : Fin 128, x3 (ix2 k q) = Wn (ix2 k q))
    (e4 : x4 (ix2 (0 : Fin 1) q) = b (ix1 q)) :
    k0_pay1 (F := Ideal) x0 x1 x2 x3 x4 (ix2 p q) = Cert.Sage.hidden h hn Ws Wn b (ix2 P q) := by
  unfold k0_pay1 Cert.Sage.hidden
  refine Cert.Sage.Layer.clamp_bridge _ _ _ (ix2 p q) (ix2 P q) ?_
  exact Cert.Sage.Layer.affine_bridge dot_S5000x128_S128x128_S5000x128_1_0_0_1_n_n rfl
    Cert.ReferenceIdeal.dot_S100000x128_S128x128_S100000x128_1_0_0_1_n_n rfl
    x0 (shapeCast S5000x128 x1 shapeCasts_S5000x128_S5000x128) x2 x3 (shapeCast S1x128 x4 shapeCasts_S1x128_S1x128)
    h hn Ws Wn b _ _ _ _ p P q e0
    (fun k => (congrFun (shapeCast_self x1 _) _).trans (e1 k)) e2 e3
    ((congrFun (shapeCast_self x4 _) _).trans e4)

/-! ## From tiles to the array -/

/-- WHAT TILE `t` WRITES BACK is block `t` of the hidden layer of the arrays the region found, the bias array
    being the bias vector `b` laid out as one row. -/
theorem flushed_eq (c : Dev nD) (b : FVec Ideal Cert.ReferenceIdeal.S128 .f32)
    (hb : ∀ q : Fin 128, V c main_v19 (ix2 (0 : Fin 1) q) = b (ix1 q)) (t : Fin cfg0.N) :
    (dat0 V c).flushed 5 t
      = ((cfg0.win 5).blk t).view.read (Elt Ideal) (Cert.Sage.hidden (V c main_arg0) (V c main_v18) (V c main_arg3) (V c main_arg4) b) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht := tile_lt t
  have hp := p.isLt
  obtain ⟨-, -, -, -, -, -, -, -, -, -, e5, e5'⟩ := idx_facts t
  have h5 : ((cfg0.win 5).blk t).view.emb (ix2 p q) = ix2 (⟨t.val * 5000 + p.val, by omega⟩ : Fin 100000) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  refine (pay_at (iblk0 V c 0 t) (iblk0 V c 1 t) (iblk0 V c 2 t) (iblk0 V c 3 t) (iblk0 V c 4 t)
    (V c main_arg0) (V c main_v18) (V c main_arg3) (V c main_arg4) b p ⟨t.val * 5000 + p.val, by omega⟩ q
    (fun k => read_feat V c t p k _ rfl) (fun k => read_mean V c t p k _ rfl)
    (fun k => read_ws V c t k q) (fun k => read_wn V c t k q)
    ((read_bias V c t q).trans (hb q))).trans ?_
  show _ = Cert.Sage.hidden (V c main_arg0) (V c main_v18) (V c main_arg3) (V c main_arg4) b (((cfg0.win 5).blk t).view.emb (ix2 p q))
  rw [h5]

/-- An index of the result array is in tile `t`'s block iff each coordinate is in the block's range on its axis. -/
theorem mem_blk (t : Fin cfg0.N) (i : S100000x128.Idx) :
    i ∈ ((cfg0.win 5).blk t).view.set
      ↔ ∀ a : Fin 2, win0_5.index t a * S5000x128.size a ≤ (i a).val ∧ (i a).val < win0_5.index t a * S5000x128.size a + S5000x128.size a := by
  show i ∈ ((View.whole main_v20).slice (win0_5.rect t)).set ↔ _
  rw [View.set_slice_whole, Rect.mem_set_unit]
  exact Iff.rfl

/-- Every row is in some tile: row `r` is in tile `r / 5000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : (i 0).val / 5000 < cfg0.N := lt_of_lt_of_eq (by omega : (i 0).val / 5000 < 20) N_0.symm
  refine ⟨⟨(i 0).val / 5000, hN⟩, flush0_5 _, ?_⟩
  rw [mem_blk]
  obtain ⟨-, -, -, -, -, -, -, -, -, -, e5, e5'⟩ := idx_facts ⟨(i 0).val / 5000, hN⟩
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    rw [e5]; show (i 0).val / 5000 * 5000 ≤ (i 0).val ∧ (i 0).val < (i 0).val / 5000 * 5000 + 5000; omega
  | ⟨1, _⟩ =>
    show win0_5.index ⟨(i 0).val / 5000, hN⟩ (1 : Fin 2) * 128 ≤ (i 1).val ∧ (i 1).val < win0_5.index ⟨(i 0).val / 5000, hN⟩ (1 : Fin 2) * 128 + 128
    rw [e5']; omega

/-- THE RESULT ARRAY after the region: the hidden layer of the arrays the region found on entry. -/
theorem final (c : Dev nD) (b : FVec Ideal Cert.ReferenceIdeal.S128 .f32)
    (hb : ∀ q : Fin 128, V c main_v19 (ix2 (0 : Fin 1) q) = b (ix1 q)) :
    (dat0 V c).arrAt 5 cfg0.N = Cert.Sage.hidden (V c main_arg0) (V c main_v18) (V c main_arg3) (V c main_arg4) b :=
  (dat0 V c).arrAt_eq_of_cover 5 _ (fun t _ => flushed_eq V c b hb t) (cover)

end Cert.KernelIdeal.Region0

end
-- ==== Proof.Region1.lean ====
/-
  Region 1 (the second layer's dense part) as ONE whole-array function.

  The region walks the 100000 rows in 20 tiles of 5000 rows. At tile `t` it reads rows `5000·t … 5000·t + 4999` of
  the features and of the neighbour means, the two weight matrices and the bias row whole, and writes rows
  `5000·t … 5000·t + 4999` of the result. Row `p` of the tile is row `5000·t + p` of the arrays, so what the tile
  writes at `(p, q)` is the hidden layer of the whole arrays at `(5000·t + p, q)`: a row of a matrix product only
  reads that row of the left operand. The 20 tiles cover every row once, so the result array ends as the hidden layer
  of the arrays the region found on entry.
-/
import proofs.«129604_j23940147708109_1_alg».proof.Proof.Gen.KernelIdeal.Frame
import proofs.«129604_j23940147708109_1_alg».proof.Proof.Spec
import proofs.«129604_j23940147708109_1_alg».proof.Proof.Layer
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx
open Idealize.SL.Sem
open Idealize.ShloMosaic.Pipeline (Dat Cfg Window)
open Cert.KernelIdeal Cert.KernelIdeal.Gen

-- the contents of the TensorCore's buffers when the region is entered
variable (V : (c : Dev nD) → (b : Ref sig .tc) → Buf (Elt Ideal) ((c : Thread nD τ).loc b))

theorem hz : (![0, 0] : Fin 2 → Nat) = fun _ => 0 := funext fun a => by fin_cases a <;> rfl

/-- Where each window's block sits at tile `t`: the two row-tiled inputs and the output at block row `t`, the
    weights and the bias row at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem tile_lt (t : Fin cfg1.N) : t.val < 20 := lt_of_lt_of_eq t.isLt N_1

/-! ## The input blocks read at an index -/

/-- Row `p` of the features' tile is row `5000·t + p` of the features. -/
theorem read_feat (c : Dev nD) (t : Fin cfg1.N) (p : Fin 5000) (k : Fin 128) (P : Fin 100000) (hP : P.val = t.val * 5000 + p.val) :
    iblk1 V c 0 t (ix2 p k) = V c main_v20 (ix2 P k) := by
  show V c main_v20 (((cfg1.win 0).blk t).view.emb (ix2 p k)) = V c main_v20 (ix2 P k)
  obtain ⟨e0, e1, -⟩ := idx_facts t
  have h : ((cfg1.win 0).blk t).view.emb (ix2 p k) = ix2 P k := by
    funext a; apply Fin.ext
    match a with
    | ⟨0, _⟩ => show win1_0.index t (0 : Fin 2) * 5000 + 1 * p.val = P.val; omega
    | ⟨1, _⟩ => show win1_0.index t (1 : Fin 2) * 128 + 1 * k.val = k.val; omega
  rw [h]

/-- Row `p` of the neighbour means' tile is row `5000·t + p` of the neighbour means. -/
theorem read_mean (c : Dev nD) (t : Fin cfg1.N) (p : Fin 5000) (k : Fin 128) (P : Fin 100000) (hP : P.val = t.val * 5000 + p.val) :
    iblk1 V c 1 t (ix2 p k) = V c main_v39 (ix2 P k) := by
  show V c main_v39 (((cfg1.win 1).blk t).view.emb (ix2 p k)) = V c main_v39 (ix2 P k)
  obtain ⟨-, -, e0, e1, -⟩ := idx_facts t
  have h : ((cfg1.win 1).blk t).view.emb (ix2 p k) = ix2 P k := by
    funext a; apply Fin.ext
    match a with
    | ⟨0, _⟩ => show win1_1.index t (0 : Fin 2) * 5000 + 1 * p.val = P.val; omega
    | ⟨1, _⟩ => show win1_1.index t (1 : Fin 2) * 128 + 1 * k.val = k.val; omega
  rw [h]

/-- The self weights are read whole at every tile. -/
theorem read_ws (c : Dev nD) (t : Fin cfg1.N) (k : Fin 128) (q : Fin 128) :
    iblk1 V c 2 t (ix2 k q) = V c main_arg6 (ix2 k q) := by
  show V c main_arg6 (((cfg1.win 2).blk t).view.emb (ix2 k q)) = V c main_arg6 (ix2 k q)
  obtain ⟨-, -, -, -, e0, e1, -⟩ := idx_facts t
  have h : ((cfg1.win 2).blk t).view.emb (ix2 k q) = ix2 k q := by
    funext a; apply Fin.ext
    match a with
    | ⟨0, _⟩ => show win1_2.index t (0 : Fin 2) * 128 + 1 * k.val = k.val; omega
    | ⟨1, _⟩ => show win1_2.index t (1 : Fin 2) * 128 + 1 * q.val = q.val; omega
  rw [h]

/-- The neighbour weights are read whole at every tile. -/
theorem read_wn (c : Dev nD) (t : Fin cfg1.N) (k : Fin 128) (q : Fin 128) :
    iblk1 V c 3 t (ix2 k q) = V c main_arg7 (ix2 k q) := by
  show V c main_arg7 (((cfg1.win 3).blk t).view.emb (ix2 k q)) = V c main_arg7 (ix2 k q)
  obtain ⟨-, -, -, -, -, -, e0, e1, -⟩ := idx_facts t
  have h : ((cfg1.win 3).blk t).view.emb (ix2 k q) = ix2 k q := by
    funext a; apply Fin.ext
    match a with
    | ⟨0, _⟩ => show win1_3.index t (0 : Fin 2) * 128 + 1 * k.val = k.val; omega
    | ⟨1, _⟩ => show win1_3.index t (1 : Fin 2) * 128 + 1 * q.val = q.val; omega
  rw [h]

/-- The bias row is read whole at every tile. -/
theorem read_bias (c : Dev nD) (t : Fin cfg1.N) (q : Fin 128) :
    iblk1 V c 4 t (ix2 (0 : Fin 1) q) = V c main_v40 (ix2 (0 : Fin 1) q) := by
  show V c main_v40 (((cfg1.win 4).blk t).view.emb (ix2 (0 : Fin 1) q)) = V c main_v40 (ix2 (0 : Fin 1) q)
  obtain ⟨-, -, -, -, -, -, -, -, e0, e1, -⟩ := idx_facts t
  have h : ((cfg1.win 4).blk t).view.emb (ix2 (0 : Fin 1) q) = ix2 (0 : Fin 1) q := by
    funext a; apply Fin.ext
    match a with
    | ⟨0, _⟩ => show win1_4.index t (0 : Fin 2) * 1 + 1 * 0 = 0; omega
    | ⟨1, _⟩ => show win1_4.index t (1 : Fin 2) * 128 + 1 * q.val = q.val; omega
  rw [h]

/-! ## The tile's payload at an index -/

/-- What a tile stores at `(p, q)`, from blocks whose row `p` is row `P` of the arrays, is the hidden layer of the
    arrays at `(P, q)`. -/
theorem pay_at (x0 x1 : Vec Ideal S5000x128 .f32) (x2 x3 : Vec Ideal S128x128 .f32) (x4 : Vec Ideal S1x128 .f32)
    (h hn : FVec Ideal Cert.ReferenceIdeal.S100000x128 .f32) (Ws Wn : FVec Ideal Cert.ReferenceIdeal.S128x128 .f32)
    (b : FVec Ideal Cert.ReferenceIdeal.S128 .f32)
    (p : Fin 5000) (P : Fin 100000) (q : Fin 128)
    (e0 : ∀ k : Fin 128, x0 (ix2 p k) = h (ix2 P k)) (e1 : ∀ k : Fin 128, x1 (ix2 p k) = hn (ix2 P k))
    (e2 : ∀ k : Fin 128, x2 (ix2 k q) = Ws (ix2 k q)) (e3 : ∀ k : Fin 128, x3 (ix2 k q) = Wn (ix2 k q))
    (e4 : x4 (ix2 (0 : Fin 1) q) = b (ix1 q)) :
    k1_pay1 (F := Ideal) x0 x1 x2 x3 x4 (ix2 p q) = Cert.Sage.hidden h hn Ws Wn b (ix2 P q) := by
  unfold k1_pay1 Cert.Sage.hidden
  refine Cert.Sage.Layer.clamp_bridge _ _ _ (ix2 p q) (ix2 P q) ?_
  exact Cert.Sage.Layer.affine_bridge dot_S5000x128_S128x128_S5000x128_1_0_0_1_n_n rfl
    Cert.ReferenceIdeal.dot_S100000x128_S128x128_S100000x128_1_0_0_1_n_n rfl
    (shapeCast S5000x128 x0 shapeCasts_S5000x128_S5000x128) (shapeCast S5000x128 x1 shapeCasts_S5000x128_S5000x128) x2 x3
    (shapeCast S1x128 x4 shapeCasts_S1x128_S1x128)
    h hn Ws Wn b _ _ _ _ p P q
    (fun k => (congrFun (shapeCast_self x0 _) _).trans (e0 k))
    (fun k => (congrFun (shapeCast_self x1 _) _).trans (e1 k)) e2 e3
    ((congrFun (shapeCast_self x4 _) _).trans e4)

/-! ## From tiles to the array -/

/-- WHAT TILE `t` WRITES BACK is block `t` of the hidden layer of the arrays the region found, the bias array
    being the bias vector `b` laid out as one row. -/
theorem flushed_eq (c : Dev nD) (b : FVec Ideal Cert.ReferenceIdeal.S128 .f32)
    (hb : ∀ q : Fin 128, V c main_v40 (ix2 (0 : Fin 1) q) = b (ix1 q)) (t : Fin cfg1.N) :
    (dat1 V c).flushed 5 t
      = ((cfg1.win 5).blk t).view.read (Elt Ideal) (Cert.Sage.hidden (V c main_v20) (V c main_v39) (V c main_arg6) (V c main_arg7) b) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht := tile_lt t
  have hp := p.isLt
  obtain ⟨-, -, -, -, -, -, -, -, -, -, e5, e5'⟩ := idx_facts t
  have h5 : ((cfg1.win 5).blk t).view.emb (ix2 p q) = ix2 (⟨t.val * 5000 + p.val, by omega⟩ : Fin 100000) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  refine (pay_at (iblk1 V c 0 t) (iblk1 V c 1 t) (iblk1 V c 2 t) (iblk1 V c 3 t) (iblk1 V c 4 t)
    (V c main_v20) (V c main_v39) (V c main_arg6) (V c main_arg7) b p ⟨t.val * 5000 + p.val, by omega⟩ q
    (fun k => read_feat V c t p k _ rfl) (fun k => read_mean V c t p k _ rfl)
    (fun k => read_ws V c t k q) (fun k => read_wn V c t k q)
    ((read_bias V c t q).trans (hb q))).trans ?_
  show _ = Cert.Sage.hidden (V c main_v20) (V c main_v39) (V c main_arg6) (V c main_arg7) b (((cfg1.win 5).blk t).view.emb (ix2 p q))
  rw [h5]

/-- An index of the result array is in tile `t`'s block iff each coordinate is in the block's range on its axis. -/
theorem mem_blk (t : Fin cfg1.N) (i : S100000x128.Idx) :
    i ∈ ((cfg1.win 5).blk t).view.set
      ↔ ∀ a : Fin 2, win1_5.index t a * S5000x128.size a ≤ (i a).val ∧ (i a).val < win1_5.index t a * S5000x128.size a + S5000x128.size a := by
  show i ∈ ((View.whole main_v41).slice (win1_5.rect t)).set ↔ _
  rw [View.set_slice_whole, Rect.mem_set_unit]
  exact Iff.rfl

/-- Every row is in some tile: row `r` is in tile `r / 5000`. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : (i 0).val / 5000 < cfg1.N := lt_of_lt_of_eq (by omega : (i 0).val / 5000 < 20) N_1.symm
  refine ⟨⟨(i 0).val / 5000, hN⟩, flush1_5 _, ?_⟩
  rw [mem_blk]
  obtain ⟨-, -, -, -, -, -, -, -, -, -, e5, e5'⟩ := idx_facts ⟨(i 0).val / 5000, hN⟩
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    rw [e5]; show (i 0).val / 5000 * 5000 ≤ (i 0).val ∧ (i 0).val < (i 0).val / 5000 * 5000 + 5000; omega
  | ⟨1, _⟩ =>
    show win1_5.index ⟨(i 0).val / 5000, hN⟩ (1 : Fin 2) * 128 ≤ (i 1).val ∧ (i 1).val < win1_5.index ⟨(i 0).val / 5000, hN⟩ (1 : Fin 2) * 128 + 128
    rw [e5']; omega

/-- THE RESULT ARRAY after the region: the hidden layer of the arrays the region found on entry. -/
theorem final (c : Dev nD) (b : FVec Ideal Cert.ReferenceIdeal.S128 .f32)
    (hb : ∀ q : Fin 128, V c main_v40 (ix2 (0 : Fin 1) q) = b (ix1 q)) :
    (dat1 V c).arrAt 5 cfg1.N = Cert.Sage.hidden (V c main_v20) (V c main_v39) (V c main_arg6) (V c main_arg7) b :=
  (dat1 V c).arrAt_eq_of_cover 5 _ (fun t _ => flushed_eq V c b hb t) (cover)

end Cert.KernelIdeal.Region1

end
-- ==== Proof.Region2.lean ====
/-
  Region 2 (the output layer's dense part) as ONE whole-array function.

  The region walks the 100000 rows in 20 tiles of 5000 rows. At tile `t` it reads rows `5000·t … 5000·t + 4999` of
  the features and of the neighbour means, the two weight matrices (128 × 64) and the bias row (64 wide) whole, and writes rows
  `5000·t … 5000·t + 4999` of the result. Row `p` of the tile is row `5000·t + p` of the arrays, so what the tile
  writes at `(p, q)` is the output layer of the whole arrays at `(5000·t + p, q)`: a row of a matrix product only
  reads that row of the left operand. The 20 tiles cover every row once, so the result array ends as the output layer
  of the arrays the region found on entry.
-/
import proofs.«129604_j23940147708109_1_alg».proof.Proof.Gen.KernelIdeal.Frame
import proofs.«129604_j23940147708109_1_alg».proof.Proof.Spec
import proofs.«129604_j23940147708109_1_alg».proof.Proof.Layer
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx
open Idealize.SL.Sem
open Idealize.ShloMosaic.Pipeline (Dat Cfg Window)
open Cert.KernelIdeal Cert.KernelIdeal.Gen

-- the contents of the TensorCore's buffers when the region is entered
variable (V : (c : Dev nD) → (b : Ref sig .tc) → Buf (Elt Ideal) ((c : Thread nD τ).loc b))

theorem hz : (![0, 0] : Fin 2 → Nat) = fun _ => 0 := funext fun a => by fin_cases a <;> rfl

/-- Where each window's block sits at tile `t`: the two row-tiled inputs and the output at block row `t`, the
    weights and the bias row at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem tile_lt (t : Fin cfg2.N) : t.val < 20 := lt_of_lt_of_eq t.isLt N_2

/-! ## The input blocks read at an index -/

/-- Row `p` of the features' tile is row `5000·t + p` of the features. -/
theorem read_feat (c : Dev nD) (t : Fin cfg2.N) (p : Fin 5000) (k : Fin 128) (P : Fin 100000) (hP : P.val = t.val * 5000 + p.val) :
    iblk2 V c 0 t (ix2 p k) = V c main_v41 (ix2 P k) := by
  show V c main_v41 (((cfg2.win 0).blk t).view.emb (ix2 p k)) = V c main_v41 (ix2 P k)
  obtain ⟨e0, e1, -⟩ := idx_facts t
  have h : ((cfg2.win 0).blk t).view.emb (ix2 p k) = ix2 P k := by
    funext a; apply Fin.ext
    match a with
    | ⟨0, _⟩ => show win2_0.index t (0 : Fin 2) * 5000 + 1 * p.val = P.val; omega
    | ⟨1, _⟩ => show win2_0.index t (1 : Fin 2) * 128 + 1 * k.val = k.val; omega
  rw [h]

/-- Row `p` of the neighbour means' tile is row `5000·t + p` of the neighbour means. -/
theorem read_mean (c : Dev nD) (t : Fin cfg2.N) (p : Fin 5000) (k : Fin 128) (P : Fin 100000) (hP : P.val = t.val * 5000 + p.val) :
    iblk2 V c 1 t (ix2 p k) = V c main_v60 (ix2 P k) := by
  show V c main_v60 (((cfg2.win 1).blk t).view.emb (ix2 p k)) = V c main_v60 (ix2 P k)
  obtain ⟨-, -, e0, e1, -⟩ := idx_facts t
  have h : ((cfg2.win 1).blk t).view.emb (ix2 p k) = ix2 P k := by
    funext a; apply Fin.ext
    match a with
    | ⟨0, _⟩ => show win2_1.index t (0 : Fin 2) * 5000 + 1 * p.val = P.val; omega
    | ⟨1, _⟩ => show win2_1.index t (1 : Fin 2) * 128 + 1 * k.val = k.val; omega
  rw [h]

/-- The self weights are read whole at every tile. -/
theorem read_ws (c : Dev nD) (t : Fin cfg2.N) (k : Fin 128) (q : Fin 64) :
    iblk2 V c 2 t (ix2 k q) = V c main_arg9 (ix2 k q) := by
  show V c main_arg9 (((cfg2.win 2).blk t).view.emb (ix2 k q)) = V c main_arg9 (ix2 k q)
  obtain ⟨-, -, -, -, e0, e1, -⟩ := idx_facts t
  have h : ((cfg2.win 2).blk t).view.emb (ix2 k q) = ix2 k q := by
    funext a; apply Fin.ext
    match a with
    | ⟨0, _⟩ => show win2_2.index t (0 : Fin 2) * 128 + 1 * k.val = k.val; omega
    | ⟨1, _⟩ => show win2_2.index t (1 : Fin 2) * 64 + 1 * q.val = q.val; omega
  rw [h]

/-- The neighbour weights are read whole at every tile. -/
theorem read_wn (c : Dev nD) (t : Fin cfg2.N) (k : Fin 128) (q : Fin 64) :
    iblk2 V c 3 t (ix2 k q) = V c main_arg10 (ix2 k q) := by
  show V c main_arg10 (((cfg2.win 3).blk t).view.emb (ix2 k q)) = V c main_arg10 (ix2 k q)
  obtain ⟨-, -, -, -, -, -, e0, e1, -⟩ := idx_facts t
  have h : ((cfg2.win 3).blk t).view.emb (ix2 k q) = ix2 k q := by
    funext a; apply Fin.ext
    match a with
    | ⟨0, _⟩ => show win2_3.index t (0 : Fin 2) * 128 + 1 * k.val = k.val; omega
    | ⟨1, _⟩ => show win2_3.index t (1 : Fin 2) * 64 + 1 * q.val = q.val; omega
  rw [h]

/-- The bias row is read whole at every tile. -/
theorem read_bias (c : Dev nD) (t : Fin cfg2.N) (q : Fin 64) :
    iblk2 V c 4 t (ix2 (0 : Fin 1) q) = V c main_v61 (ix2 (0 : Fin 1) q) := by
  show V c main_v61 (((cfg2.win 4).blk t).view.emb (ix2 (0 : Fin 1) q)) = V c main_v61 (ix2 (0 : Fin 1) q)
  obtain ⟨-, -, -, -, -, -, -, -, e0, e1, -⟩ := idx_facts t
  have h : ((cfg2.win 4).blk t).view.emb (ix2 (0 : Fin 1) q) = ix2 (0 : Fin 1) q := by
    funext a; apply Fin.ext
    match a with
    | ⟨0, _⟩ => show win2_4.index t (0 : Fin 2) * 1 + 1 * 0 = 0; omega
    | ⟨1, _⟩ => show win2_4.index t (1 : Fin 2) * 64 + 1 * q.val = q.val; omega
  rw [h]

/-! ## The tile's payload at an index -/

/-- What a tile stores at `(p, q)`, from blocks whose row `p` is row `P` of the arrays, is the output layer of the
    arrays at `(P, q)` (this layer is not clamped). -/
theorem pay_at (x0 x1 : Vec Ideal S5000x128 .f32) (x2 x3 : Vec Ideal S128x64 .f32) (x4 : Vec Ideal S1x64 .f32)
    (h hn : FVec Ideal Cert.ReferenceIdeal.S100000x128 .f32) (Ws Wn : FVec Ideal Cert.ReferenceIdeal.S128x64 .f32)
    (b : FVec Ideal Cert.ReferenceIdeal.S64 .f32)
    (p : Fin 5000) (P : Fin 100000) (q : Fin 64)
    (e0 : ∀ k : Fin 128, x0 (ix2 p k) = h (ix2 P k)) (e1 : ∀ k : Fin 128, x1 (ix2 p k) = hn (ix2 P k))
    (e2 : ∀ k : Fin 128, x2 (ix2 k q) = Ws (ix2 k q)) (e3 : ∀ k : Fin 128, x3 (ix2 k q) = Wn (ix2 k q))
    (e4 : x4 (ix2 (0 : Fin 1) q) = b (ix1 q)) :
    k2_pay1 (F := Ideal) x0 x1 x2 x3 x4 (ix2 p q) = Cert.Sage.output h hn Ws Wn b (ix2 P q) := by
  unfold k2_pay1 Cert.Sage.output
  exact Cert.Sage.Layer.affine_bridge dot_S5000x128_S128x64_S5000x64_1_0_0_1_n_n rfl
    Cert.ReferenceIdeal.dot_S100000x128_S128x64_S100000x64_1_0_0_1_n_n rfl
    (shapeCast S5000x128 x0 shapeCasts_S5000x128_S5000x128) (shapeCast S5000x128 x1 shapeCasts_S5000x128_S5000x128) x2 x3
    (shapeCast S1x64 x4 shapeCasts_S1x64_S1x64)
    h hn Ws Wn b _ _ _ _ p P q
    (fun k => (congrFun (shapeCast_self x0 _) _).trans (e0 k))
    (fun k => (congrFun (shapeCast_self x1 _) _).trans (e1 k)) e2 e3
    ((congrFun (shapeCast_self x4 _) _).trans e4)

/-! ## From tiles to the array -/

/-- WHAT TILE `t` WRITES BACK is block `t` of the output layer of the arrays the region found, the bias array
    being the bias vector `b` laid out as one row. -/
theorem flushed_eq (c : Dev nD) (b : FVec Ideal Cert.ReferenceIdeal.S64 .f32)
    (hb : ∀ q : Fin 64, V c main_v61 (ix2 (0 : Fin 1) q) = b (ix1 q)) (t : Fin cfg2.N) :
    (dat2 V c).flushed 5 t
      = ((cfg2.win 5).blk t).view.read (Elt Ideal) (Cert.Sage.output (V c main_v41) (V c main_v60) (V c main_arg9) (V c main_arg10) b) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x64) hz, View.ld_unit_zero (S := S1x64) hz]
  funext j
  obtain ⟨p, q, rfl⟩ : ∃ (p : Fin 5000) (q : Fin 64), j = ix2 p q := ⟨j 0, j 1, eq_ix2 j⟩
  have ht := tile_lt t
  have hp := p.isLt
  obtain ⟨-, -, -, -, -, -, -, -, -, -, e5, e5'⟩ := idx_facts t
  have h5 : ((cfg2.win 5).blk t).view.emb (ix2 p q) = ix2 (⟨t.val * 5000 + p.val, by omega⟩ : Fin 100000) q := by
    funext a; apply Fin.ext
    match a with
    | ⟨0, _⟩ => show win2_5.index t (0 : Fin 2) * 5000 + 1 * p.val = t.val * 5000 + p.val; omega
    | ⟨1, _⟩ => show win2_5.index t (1 : Fin 2) * 64 + 1 * q.val = q.val; omega
  refine (pay_at (iblk2 V c 0 t) (iblk2 V c 1 t) (iblk2 V c 2 t) (iblk2 V c 3 t) (iblk2 V c 4 t)
    (V c main_v41) (V c main_v60) (V c main_arg9) (V c main_arg10) b p ⟨t.val * 5000 + p.val, by omega⟩ q
    (fun k => read_feat V c t p k _ rfl) (fun k => read_mean V c t p k _ rfl)
    (fun k => read_ws V c t k q) (fun k => read_wn V c t k q)
    ((read_bias V c t q).trans (hb q))).trans ?_
  show _ = Cert.Sage.output (V c main_v41) (V c main_v60) (V c main_arg9) (V c main_arg10) b (((cfg2.win 5).blk t).view.emb (ix2 p q))
  rw [h5]

/-- An index of the result array is in tile `t`'s block iff each coordinate is in the block's range on its axis. -/
theorem mem_blk (t : Fin cfg2.N) (i : S100000x64.Idx) :
    i ∈ ((cfg2.win 5).blk t).view.set
      ↔ ∀ a : Fin 2, win2_5.index t a * S5000x64.size a ≤ (i a).val ∧ (i a).val < win2_5.index t a * S5000x64.size a + S5000x64.size a := by
  show i ∈ ((View.whole main_v62).slice (win2_5.rect t)).set ↔ _
  rw [View.set_slice_whole, Rect.mem_set_unit]
  exact Iff.rfl

/-- Every row is in some tile: row `r` is in tile `r / 5000`. -/
theorem cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : (i 0).val / 5000 < cfg2.N := lt_of_lt_of_eq (by omega : (i 0).val / 5000 < 20) N_2.symm
  refine ⟨⟨(i 0).val / 5000, hN⟩, flush2_5 _, ?_⟩
  rw [mem_blk]
  obtain ⟨-, -, -, -, -, -, -, -, -, -, e5, e5'⟩ := idx_facts ⟨(i 0).val / 5000, hN⟩
  intro a
  match a with
  | ⟨0, _⟩ =>
    show win2_5.index ⟨(i 0).val / 5000, hN⟩ (0 : Fin 2) * 5000 ≤ (i 0).val ∧ (i 0).val < win2_5.index ⟨(i 0).val / 5000, hN⟩ (0 : Fin 2) * 5000 + 5000
    rw [e5]; show (i 0).val / 5000 * 5000 ≤ (i 0).val ∧ (i 0).val < (i 0).val / 5000 * 5000 + 5000; omega
  | ⟨1, _⟩ =>
    show win2_5.index ⟨(i 0).val / 5000, hN⟩ (1 : Fin 2) * 64 ≤ (i 1).val ∧ (i 1).val < win2_5.index ⟨(i 0).val / 5000, hN⟩ (1 : Fin 2) * 64 + 64
    rw [e5']; omega

/-- THE RESULT ARRAY after the region: the output layer of the arrays the region found on entry. -/
theorem final (c : Dev nD) (b : FVec Ideal Cert.ReferenceIdeal.S64 .f32)
    (hb : ∀ q : Fin 64, V c main_v61 (ix2 (0 : Fin 1) q) = b (ix1 q)) :
    (dat2 V c).arrAt 5 cfg2.N = Cert.Sage.output (V c main_v41) (V c main_v60) (V c main_arg9) (V c main_arg10) b :=
  (dat2 V c).arrAt_eq_of_cover 5 _ (fun t _ => flushed_eq V c b hb t) (cover)

end Cert.KernelIdeal.Region2

end
-- ==== Proof.Stages.lean ====
/-
  The tiled program's result is `net` of its argument arrays.

  The program alternates host stretches and regions. Before each region a host stretch computes the neighbour mean
  of the current features (the same host operations `mean` names) and lays the layer's bias vector out as one row;
  it writes no argument array and does not touch the current features. Each region then leaves the layer of what it
  found (Region0 / Region1 / Region2). Reading the buffers stage by stage:

      features₀ = x,   features₁ = hidden(x, mean x),   features₂ = hidden(features₁, mean features₁),
      result    = output(features₂, mean features₂),

  which is `net`. An argument array is read back to the launch memory through every stage: no host operation and
  no region writes one.
-/
import proofs.«129604_j23940147708109_1_alg».proof.Proof.Gen.KernelIdeal.Frame
import proofs.«129604_j23940147708109_1_alg».proof.Proof.Region0
import proofs.«129604_j23940147708109_1_alg».proof.Proof.Region1
import proofs.«129604_j23940147708109_1_alg».proof.Proof.Region2
import proofs.«129604_j23940147708109_1_alg».proof.Proof.Spec
import Idealize.ShloMosaic.Lib.StableHlo.Run
import Idealize.ShloMosaic.Lib.ValueLayout

set_option maxRecDepth 16384

noncomputable section

namespace Cert.KernelIdeal.Stages

open Idealize.ShloMosaic Idealize.ShloMosaic.TcCoe Idealize.ShloMosaic.ValueIdx
open Idealize.SL.Sem Idealize.ShloMosaic.StableHlo
open Cert.KernelIdeal Cert.KernelIdeal.Gen

variable (m : (ℓ : Loc nD τ sig) → Buf (Elt Ideal) ℓ) (ρ : Dev nD → PrngReg)

/-! ## Entering region 0: after the first host stretch -/

theorem V1_arg0 (c : Dev nD) : V1 m ρ c main_arg0 = m ((c : Thread nD τ).loc main_arg0) := by
  show StableHlo.after hostOps0 (W0 m ρ c) (Proc.devRef .tc main_arg0) = _
  after_results_simp <;> rfl
theorem V1_arg1 (c : Dev nD) : V1 m ρ c main_arg1 = m ((c : Thread nD τ).loc main_arg1) := by
  show StableHlo.after hostOps0 (W0 m ρ c) (Proc.devRef .tc main_arg1) = _
  after_results_simp <;> rfl
theorem V1_arg2 (c : Dev nD) : V1 m ρ c main_arg2 = m ((c : Thread nD τ).loc main_arg2) := by
  show StableHlo.after hostOps0 (W0 m ρ c) (Proc.devRef .tc main_arg2) = _
  after_results_simp <;> rfl
theorem V1_arg3 (c : Dev nD) : V1 m ρ c main_arg3 = m ((c : Thread nD τ).loc main_arg3) := by
  show StableHlo.after hostOps0 (W0 m ρ c) (Proc.devRef .tc main_arg3) = _
  after_results_simp <;> rfl
theorem V1_arg4 (c : Dev nD) : V1 m ρ c main_arg4 = m ((c : Thread nD τ).loc main_arg4) := by
  show StableHlo.after hostOps0 (W0 m ρ c) (Proc.devRef .tc main_arg4) = _
  after_results_simp <;> rfl
theorem V1_arg6 (c : Dev nD) : V1 m ρ c main_arg6 = m ((c : Thread nD τ).loc main_arg6) := by
  show StableHlo.after hostOps0 (W0 m ρ c) (Proc.devRef .tc main_arg6) = _
  after_results_simp <;> rfl
theorem V1_arg7 (c : Dev nD) : V1 m ρ c main_arg7 = m ((c : Thread nD τ).loc main_arg7) := by
  show StableHlo.after hostOps0 (W0 m ρ c) (Proc.devRef .tc main_arg7) = _
  after_results_simp <;> rfl
theorem V1_arg8 (c : Dev nD) : V1 m ρ c main_arg8 = m ((c : Thread nD τ).loc main_arg8) := by
  show StableHlo.after hostOps0 (W0 m ρ c) (Proc.devRef .tc main_arg8) = _
  after_results_simp <;> rfl
theorem V1_arg9 (c : Dev nD) : V1 m ρ c main_arg9 = m ((c : Thread nD τ).loc main_arg9) := by
  show StableHlo.after hostOps0 (W0 m ρ c) (Proc.devRef .tc main_arg9) = _
  after_results_simp <;> rfl
theorem V1_arg10 (c : Dev nD) : V1 m ρ c main_arg10 = m ((c : Thread nD τ).loc main_arg10) := by
  show StableHlo.after hostOps0 (W0 m ρ c) (Proc.devRef .tc main_arg10) = _
  after_results_simp <;> rfl
theorem V1_arg11 (c : Dev nD) : V1 m ρ c main_arg11 = m ((c : Thread nD τ).loc main_arg11) := by
  show StableHlo.after hostOps0 (W0 m ρ c) (Proc.devRef .tc main_arg11) = _
  after_results_simp <;> rfl

/-- The first stretch leaves the neighbour mean of the input features. -/
theorem V1_mean (c : Dev nD) :
    V1 m ρ c main_v18 = Cert.Sage.mean (m ((c : Thread nD τ).loc main_arg0)) (m ((c : Thread nD τ).loc main_arg1)) (m ((c : Thread nD τ).loc main_arg2)) := by
  show StableHlo.after hostOps0 (W0 m ρ c) (Proc.devRef .tc main_v18) = _
  after_results_simp <;> rfl

/-- The first stretch lays the first bias vector out as one row. -/
theorem V1_bias (c : Dev nD) (q : Fin 128) :
    V1 m ρ c main_v19 (ix2 (0 : Fin 1) q) = m ((c : Thread nD τ).loc main_arg5) (ix1 q) := by
  have e : V1 m ρ c main_v19 = shapeCast S1x128 (m ((c : Thread nD τ).loc main_arg5)) shapeCasts_S128_S1x128 := by
    show StableHlo.after hostOps0 (W0 m ρ c) (Proc.devRef .tc main_v19) = _
    after_results_simp <;> rfl
  rw [e]
  exact shapeCast_a_1a_apply _ _ 0 q

/-! ## Leaving region 0 -/

/-- Region 0 leaves the features after the first layer. -/
theorem W2_feat1 (c : Dev nD) :
    W2 m ρ c (Proc.devRef .tc main_v20) = Cert.Sage.feat1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 5).trans ((Region0.final (V1 m ρ) c (m ((c : Thread nD τ).loc main_arg5)) (V1_bias m ρ c)).trans ?_)
  rw [V1_arg0, V1_mean, V1_arg3, V1_arg4]
  rfl

theorem W2_arg1 (c : Dev nD) : W2 m ρ c (Proc.devRef .tc main_arg1) = m ((c : Thread nD τ).loc main_arg1) :=
  (W2_of_ne m ρ c main_arg1 (by decide)).trans (V1_arg1 m ρ c)
theorem W2_arg2 (c : Dev nD) : W2 m ρ c (Proc.devRef .tc main_arg2) = m ((c : Thread nD τ).loc main_arg2) :=
  (W2_of_ne m ρ c main_arg2 (by decide)).trans (V1_arg2 m ρ c)
theorem W2_arg6 (c : Dev nD) : W2 m ρ c (Proc.devRef .tc main_arg6) = m ((c : Thread nD τ).loc main_arg6) :=
  (W2_of_ne m ρ c main_arg6 (by decide)).trans (V1_arg6 m ρ c)
theorem W2_arg7 (c : Dev nD) : W2 m ρ c (Proc.devRef .tc main_arg7) = m ((c : Thread nD τ).loc main_arg7) :=
  (W2_of_ne m ρ c main_arg7 (by decide)).trans (V1_arg7 m ρ c)
theorem W2_arg8 (c : Dev nD) : W2 m ρ c (Proc.devRef .tc main_arg8) = m ((c : Thread nD τ).loc main_arg8) :=
  (W2_of_ne m ρ c main_arg8 (by decide)).trans (V1_arg8 m ρ c)
theorem W2_arg9 (c : Dev nD) : W2 m ρ c (Proc.devRef .tc main_arg9) = m ((c : Thread nD τ).loc main_arg9) :=
  (W2_of_ne m ρ c main_arg9 (by decide)).trans (V1_arg9 m ρ c)
theorem W2_arg10 (c : Dev nD) : W2 m ρ c (Proc.devRef .tc main_arg10) = m ((c : Thread nD τ).loc main_arg10) :=
  (W2_of_ne m ρ c main_arg10 (by decide)).trans (V1_arg10 m ρ c)
theorem W2_arg11 (c : Dev nD) : W2 m ρ c (Proc.devRef .tc main_arg11) = m ((c : Thread nD τ).loc main_arg11) :=
  (W2_of_ne m ρ c main_arg11 (by decide)).trans (V1_arg11 m ρ c)

/-! ## Entering region 1: after the second host stretch -/

theorem V3_arg1 (c : Dev nD) : V3 m ρ c main_arg1 = m ((c : Thread nD τ).loc main_arg1) := by
  have h : StableHlo.after hostOps1 (W2 m ρ c) (Proc.devRef .tc main_arg1) = W2 m ρ c (Proc.devRef .tc main_arg1) := by
    after_results_simp <;> rfl
  exact h.trans (W2_arg1 m ρ c)
theorem V3_arg2 (c : Dev nD) : V3 m ρ c main_arg2 = m ((c : Thread nD τ).loc main_arg2) := by
  have h : StableHlo.after hostOps1 (W2 m ρ c) (Proc.devRef .tc main_arg2) = W2 m ρ c (Proc.devRef .tc main_arg2) := by
    after_results_simp <;> rfl
  exact h.trans (W2_arg2 m ρ c)
theorem V3_arg6 (c : Dev nD) : V3 m ρ c main_arg6 = m ((c : Thread nD τ).loc main_arg6) := by
  have h : StableHlo.after hostOps1 (W2 m ρ c) (Proc.devRef .tc main_arg6) = W2 m ρ c (Proc.devRef .tc main_arg6) := by
    after_results_simp <;> rfl
  exact h.trans (W2_arg6 m ρ c)
theorem V3_arg7 (c : Dev nD) : V3 m ρ c main_arg7 = m ((c : Thread nD τ).loc main_arg7) := by
  have h : StableHlo.after hostOps1 (W2 m ρ c) (Proc.devRef .tc main_arg7) = W2 m ρ c (Proc.devRef .tc main_arg7) := by
    after_results_simp <;> rfl
  exact h.trans (W2_arg7 m ρ c)
theorem V3_arg9 (c : Dev nD) : V3 m ρ c main_arg9 = m ((c : Thread nD τ).loc main_arg9) := by
  have h : StableHlo.after hostOps1 (W2 m ρ c) (Proc.devRef .tc main_arg9) = W2 m ρ c (Proc.devRef .tc main_arg9) := by
    after_results_simp <;> rfl
  exact h.trans (W2_arg9 m ρ c)
theorem V3_arg10 (c : Dev nD) : V3 m ρ c main_arg10 = m ((c : Thread nD τ).loc main_arg10) := by
  have h : StableHlo.after hostOps1 (W2 m ρ c) (Proc.devRef .tc main_arg10) = W2 m ρ c (Proc.devRef .tc main_arg10) := by
    after_results_simp <;> rfl
  exact h.trans (W2_arg10 m ρ c)
theorem V3_arg11 (c : Dev nD) : V3 m ρ c main_arg11 = m ((c : Thread nD τ).loc main_arg11) := by
  have h : StableHlo.after hostOps1 (W2 m ρ c) (Proc.devRef .tc main_arg11) = W2 m ρ c (Proc.devRef .tc main_arg11) := by
    after_results_simp <;> rfl
  exact h.trans (W2_arg11 m ρ c)

/-- The second stretch does not touch the features. -/
theorem V3_feat1 (c : Dev nD) : V3 m ρ c main_v20 = Cert.Sage.feat1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h : StableHlo.after hostOps1 (W2 m ρ c) (Proc.devRef .tc main_v20) = W2 m ρ c (Proc.devRef .tc main_v20) := by
    after_results_simp <;> rfl
  exact h.trans (W2_feat1 m ρ c)

/-- The second stretch leaves the neighbour mean of the features after the first layer. -/
theorem V3_mean (c : Dev nD) :
    V3 m ρ c main_v39 = Cert.Sage.mean (Cert.Sage.feat1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) := by
  have h : StableHlo.after hostOps1 (W2 m ρ c) (Proc.devRef .tc main_v39)
      = Cert.Sage.mean (W2 m ρ c (Proc.devRef .tc main_v20)) (W2 m ρ c (Proc.devRef .tc main_arg1)) (W2 m ρ c (Proc.devRef .tc main_arg2)) := by
    after_results_simp <;> rfl
  rw [W2_feat1, W2_arg1, W2_arg2] at h
  exact h

/-- The second stretch lays the second bias vector out as one row. -/
theorem V3_bias (c : Dev nD) (q : Fin 128) :
    V3 m ρ c main_v40 (ix2 (0 : Fin 1) q) = m ((c : Thread nD τ).loc main_arg8) (ix1 q) := by
  have e : V3 m ρ c main_v40 = shapeCast S1x128 (W2 m ρ c (Proc.devRef .tc main_arg8)) shapeCasts_S128_S1x128 := by
    show StableHlo.after hostOps1 (W2 m ρ c) (Proc.devRef .tc main_v40) = _
    after_results_simp <;> rfl
  rw [e, W2_arg8]
  exact shapeCast_a_1a_apply _ _ 0 q

/-! ## Leaving region 1 -/

/-- Region 1 leaves the features after the second layer. -/
theorem W4_feat2 (c : Dev nD) :
    W4 m ρ c (Proc.devRef .tc main_v41) = Cert.Sage.feat2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ((Region1.final (V3 m ρ) c (m ((c : Thread nD τ).loc main_arg8)) (V3_bias m ρ c)).trans ?_)
  rw [V3_feat1, V3_mean, V3_arg6, V3_arg7]
  rfl

theorem W4_arg1 (c : Dev nD) : W4 m ρ c (Proc.devRef .tc main_arg1) = m ((c : Thread nD τ).loc main_arg1) :=
  (W4_of_ne m ρ c main_arg1 (by decide)).trans (V3_arg1 m ρ c)
theorem W4_arg2 (c : Dev nD) : W4 m ρ c (Proc.devRef .tc main_arg2) = m ((c : Thread nD τ).loc main_arg2) :=
  (W4_of_ne m ρ c main_arg2 (by decide)).trans (V3_arg2 m ρ c)
theorem W4_arg9 (c : Dev nD) : W4 m ρ c (Proc.devRef .tc main_arg9) = m ((c : Thread nD τ).loc main_arg9) :=
  (W4_of_ne m ρ c main_arg9 (by decide)).trans (V3_arg9 m ρ c)
theorem W4_arg10 (c : Dev nD) : W4 m ρ c (Proc.devRef .tc main_arg10) = m ((c : Thread nD τ).loc main_arg10) :=
  (W4_of_ne m ρ c main_arg10 (by decide)).trans (V3_arg10 m ρ c)
theorem W4_arg11 (c : Dev nD) : W4 m ρ c (Proc.devRef .tc main_arg11) = m ((c : Thread nD τ).loc main_arg11) :=
  (W4_of_ne m ρ c main_arg11 (by decide)).trans (V3_arg11 m ρ c)

/-! ## Entering region 2: after the third host stretch -/

theorem V5_arg9 (c : Dev nD) : V5 m ρ c main_arg9 = m ((c : Thread nD τ).loc main_arg9) := by
  have h : StableHlo.after hostOps2 (W4 m ρ c) (Proc.devRef .tc main_arg9) = W4 m ρ c (Proc.devRef .tc main_arg9) := by
    after_results_simp <;> rfl
  exact h.trans (W4_arg9 m ρ c)
theorem V5_arg10 (c : Dev nD) : V5 m ρ c main_arg10 = m ((c : Thread nD τ).loc main_arg10) := by
  have h : StableHlo.after hostOps2 (W4 m ρ c) (Proc.devRef .tc main_arg10) = W4 m ρ c (Proc.devRef .tc main_arg10) := by
    after_results_simp <;> rfl
  exact h.trans (W4_arg10 m ρ c)

/-- The third stretch does not touch the features. -/
theorem V5_feat2 (c : Dev nD) : V5 m ρ c main_v41 = Cert.Sage.feat2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h : StableHlo.after hostOps2 (W4 m ρ c) (Proc.devRef .tc main_v41) = W4 m ρ c (Proc.devRef .tc main_v41) := by
    after_results_simp <;> rfl
  exact h.trans (W4_feat2 m ρ c)

/-- The third stretch leaves the neighbour mean of the features after the second layer. -/
theorem V5_mean (c : Dev nD) :
    V5 m ρ c main_v60 = Cert.Sage.mean (Cert.Sage.feat2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) (m ((c : Thread nD τ).loc main_arg2)) := by
  have h : StableHlo.after hostOps2 (W4 m ρ c) (Proc.devRef .tc main_v60)
      = Cert.Sage.mean (W4 m ρ c (Proc.devRef .tc main_v41)) (W4 m ρ c (Proc.devRef .tc main_arg1)) (W4 m ρ c (Proc.devRef .tc main_arg2)) := by
    after_results_simp <;> rfl
  rw [W4_feat2, W4_arg1, W4_arg2] at h
  exact h

/-- The third stretch lays the third bias vector out as one row. -/
theorem V5_bias (c : Dev nD) (q : Fin 64) :
    V5 m ρ c main_v61 (ix2 (0 : Fin 1) q) = m ((c : Thread nD τ).loc main_arg11) (ix1 q) := by
  have e : V5 m ρ c main_v61 = shapeCast S1x64 (W4 m ρ c (Proc.devRef .tc main_arg11)) shapeCasts_S64_S1x64 := by
    show StableHlo.after hostOps2 (W4 m ρ c) (Proc.devRef .tc main_v61) = _
    after_results_simp <;> rfl
  rw [e, W4_arg11]
  exact shapeCast_a_1a_apply _ _ 0 q

/-! ## Leaving region 2: the result -/

/-- THE RESULT BUFFER after the run holds `net` of the argument arrays as launched. -/
theorem W6_net (c : Dev nD) :
    W6 m ρ c (Proc.devRef .tc main_v62) = Cert.Sage.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 5).trans ((Region2.final (V5 m ρ) c (m ((c : Thread nD τ).loc main_arg11)) (V5_bias m ρ c)).trans ?_)
  rw [V5_feat2, V5_mean, V5_arg9, V5_arg10]
  rfl

end Cert.KernelIdeal.Stages

end
-- ==== Proof.RefSide.lean ====
/-
  The whole-array program computes `net`: its run ends with the result at the composed term of its operations,
  and that term is `net` of the argument arrays, layer by layer the same operations in the same order (the
  outlined clamp `max(·, 0)` stands at its two call sites).
-/
import proofs.«129604_j23940147708109_1_alg».proof.Proof.Gen.ReferenceIdeal.Run
import proofs.«129604_j23940147708109_1_alg».proof.Proof.Spec

noncomputable section

namespace Cert.Sage.RefSide

open Idealize.ShloMosaic Idealize.ShloMosaic.TcCoe Idealize.SL.Sem Cert.ReferenceIdeal

/-- The result term of the whole-array program's run is `net` of its twelve argument arrays. -/
theorem result_is_net (m : (ℓ : Loc nD τ sig) → Buf (Elt Ideal) ℓ) (c : Dev nD) :
    Cert.ReferenceIdeal.Value.res_main_v76 (F := Ideal) m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  unfold Cert.ReferenceIdeal.Value.res_main_v76 net feat2 feat1 output hidden mean
  rfl

end Cert.Sage.RefSide

end
-- ==== Proof.lean ====
/-
  The proof of `Cert.Claim` for a three-layer graph network: each layer is

      h ↦ h · W_self + mean(h) · W_neigh + b        (clamped below at zero in the first two layers),

  `mean(h)` the neighbour mean along the edge lists (rows gathered at the sources, summed into the destinations,
  divided by the larger of the in-degree and one).

  The tiled program computes the neighbour mean with host operations and the dense part of each layer in a region
  that walks the rows in 20 tiles of 5000; the whole-array program computes everything with host operations. At the
  ideal values a change of float format is the identity and a matrix product into the zero accumulator is the plain
  contraction sum, so a tile's row of the layer is the whole-array layer's row (Proof/Layer.lean, Proof/Region0–2.lean),
  the tiles cover the rows (same modules), and the two programs apply the same neighbour-mean operations to equal
  features (Proof/Stages.lean for the tiled program, Proof/RefSide.lean for the whole-array one). Both results are
  `net` (Proof/Spec.lean) of the argument arrays. No law of the extended reals beyond reading each operation at an
  index is used, so the precondition (finite inputs) is never opened.

  The frames of the two tiled programs are the generated ones; the whole-array program's frame is its generated run
  with the result dropped. The idealization rewrote nothing, so `preserves` is `True`.
-/
import proofs.«129604_j23940147708109_1_alg».proof.Defs
import proofs.«129604_j23940147708109_1_alg».proof.Proof.Gen.Kernel.Frame
import proofs.«129604_j23940147708109_1_alg».proof.Proof.Gen.KernelIdeal.Frame
import proofs.«129604_j23940147708109_1_alg».proof.Proof.Gen.ReferenceIdeal.Run
import proofs.«129604_j23940147708109_1_alg».proof.Proof.Gen.Pre_finite_inputs
import proofs.«129604_j23940147708109_1_alg».proof.Proof.KernelRun
import proofs.«129604_j23940147708109_1_alg».proof.Proof.Stages
import proofs.«129604_j23940147708109_1_alg».proof.Proof.RefSide

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The tiled program's run ends with its result at `net` of the argument arrays and the arguments unchanged. -/
theorem kernel_run_net (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v62)
          = Cert.Sage.net
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) :=
  (θ_run Cert.KernelIdeal.defs _ _).mono
    (fun _ h c => ⟨(h c).1.trans (Cert.KernelIdeal.Stages.W6_net m ρ c), (h c).2⟩)
    (Cert.KernelIdeal.RunResult.run (F := Ideal) m ρ)

/-- From memories agreeing on the arguments both programs end with `net` of those arguments. -/
theorem algebraic : Cert.algebraic_KernelIdeal_ReferenceIdeal := by
  intro m ρ m' ρ' _ hagree
  refine ⟨_, kernel_run_net m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.Sage.RefSide.result_is_net m' c, h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
